-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x512 : Shape := ⟨2, ![2, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S8192x512 .f32) (main_arg1 : FVec F S2x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S2x512 .f32 := Host.absf main_arg1
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  main_v8
-- ==== Kernel.lean ====
abbrev S8192x512 : Shape := ⟨2, ![8192, 512]⟩
abbrev S2x512 : Shape := ⟨2, ![2, 512]⟩
abbrev S2048x512 : Shape := ⟨2, ![2048, 512]⟩
abbrev S1x512 : Shape := ⟨2, ![1, 512]⟩
abbrev S512 : Shape := ⟨1, ![512]⟩
abbrev S2048 : Shape := ⟨1, ![2048]⟩
abbrev S2048x1 : Shape := ⟨2, ![2048, 1]⟩
abbrev S8192x8192 : Shape := ⟨2, ![8192, 8192]⟩
abbrev S256x512 : Shape := ⟨2, ![256, 512]⟩
abbrev S256x8192 : Shape := ⟨2, ![256, 8192]⟩

abbrev nBuf : Space → Nat
  | .hbm => 4
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S2x512, .f32⟩
  | .hbm, ⟨2, _⟩ => ⟨S8192x512, .bf16⟩
  | .hbm, ⟨3, _⟩ => ⟨S8192x8192, .f32⟩
  | .local _ .vmem, ⟨0, _⟩ => ⟨S2x512, .f32⟩
  | .local _ .vmem, ⟨1, _⟩ => ⟨S2048x512, .f32⟩
  | .local _ .vmem, ⟨2, _⟩ => ⟨S2048x512, .f32⟩
  | .local _ .vmem, ⟨3, _⟩ => ⟨S2048x512, .bf16⟩
  | .local _ .vmem, ⟨4, _⟩ => ⟨S2048x512, .bf16⟩
  | .local _ .vmem, ⟨5, _⟩ => ⟨S256x512, .bf16⟩
  | .local _ .vmem, ⟨6, _⟩ => ⟨S256x512, .bf16⟩
  | .local _ .vmem, ⟨7, _⟩ => ⟨S8192x512, .bf16⟩
  | .local _ .vmem, ⟨8, _⟩ => ⟨S256x8192, .f32⟩
  | .local _ .vmem, ⟨9, _⟩ => ⟨S256x8192, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2048x512_S2048x512_0_0 : ∀ a, (![0, 0] : Fin 2 → Nat) a + S2048x512.size a ≤ S2048x512.size a
  h_S2048x512 : 0 < S2048x512.numel
  inb_S2x512_S1x512_0_0 : ∀ a, (![0, 0] : Fin 2 → Nat) a + S1x512.size a ≤ S2x512.size a
  h_S1x512 : 0 < S1x512.numel
  shapeCasts_S1x512_S512 : S1x512.ShapeCasts S512
  shapeCasts_S512_S1x512 : S512.ShapeCasts S1x512
  broadcasts_S1x512_S2048x512 : S1x512.Broadcasts S2048x512
  inb_S2x512_S1x512_1_0 : ∀ a, (![1, 0] : Fin 2 → Nat) a + S1x512.size a ≤ S2x512.size a
  reduces_S2048x512_S2048 : S2048x512.Reduces [1] S2048
  shapeCasts_S2048_S2048x1 : S2048.ShapeCasts S2048x1
  broadcasts_S2048x1_S2048x512 : S2048x1.Broadcasts S2048x512
  bitsLt_bf16_f32 : FTy.bits .bf16 < FTy.bits .f32
  packedbf16_S2048x512_S2048x512_0_0 : (Rect.unit (s := S2048x512) ![0, 0] S2048x512.size inb_S2048x512_S2048x512_0_0).PackedRows (EltTy.packing .bf16)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  inb_S256x8192_S256x8192_0_0 : ∀ a, (![0, 0] : Fin 2 → Nat) a + S256x8192.size a ≤ S256x8192.size a
  h_S256x8192 : 0 < S256x8192.numel
  dot_S256x512_S8192x512_S256x8192_1_1_0_0_n_n_wf : DotDims.WF S256x512 S8192x512 S256x8192 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x512.size a ≤ S2x512.size a
  hwx0_0 : ∀ i : grid0.Coords, EltTy.bits .f32 = 32 ∨ (Rect.block (s := S2x512) S2x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .f32 = 32 ∨ (Rect.block (s := S8192x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S8192x512.size a
  hwx0_2 : ∀ i : grid0.Coords, EltTy.bits .bf16 = 32 ∨ (Rect.block (s := S8192x512) S2048x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S8192x512.size a
  hwx1_0 : ∀ i : grid1.Coords, EltTy.bits .bf16 = 32 ∨ (Rect.block (s := S8192x512) S256x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x8192.size a ≤ S8192x8192.size a
  hwx1_2 : ∀ i : grid1.Coords, EltTy.bits .f32 = 32 ∨ (Rect.block (s := S8192x8192) S256x8192.size (cc1_transform_2 i) (hinb1_2 i)).WholeWords (EltTy.packing .f32)

variable [Facts₀]

def dot_S256x512_S8192x512_S256x8192_1_1_0_0_n_n : DotDims S256x512 S8192x512 S256x8192 where
  lhsContracting := [1]
  rhsContracting := [1]
  lhsNonContracting := [0]
  rhsNonContracting := [0]
  lhsBatch := []
  rhsBatch := []
  wf := dot_S256x512_S8192x512_S256x8192_1_1_0_0_n_n_wf

abbrev win0_0 : Pipeline.Window sig grid0 :=
  Pipeline.Window.ofSpec (Memref.whole main_arg1) S2x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x512 : Shape := ⟨2, ![8192, 512]⟩
abbrev S2x512 : Shape := ⟨2, ![2, 512]⟩
abbrev S1x512 : Shape := ⟨2, ![1, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2x512, .f32⟩
  | .hbm, ⟨2, _⟩ => ⟨S1x512, .f32⟩
  | .hbm, ⟨3, _⟩ => ⟨S512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call1_cst : Ref sig .tc := ⟨.hbm, 26, rfl⟩
abbrev main_call1_v0 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  slices_S2x512_S1x512_0_0 : S2x512.Slices ![0, 0] S1x512
  shapeCasts_S1x512_S512 : S1x512.ShapeCasts S512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  slices_S2x512_S1x512_1_0 : S2x512.Slices ![1, 0] S1x512
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.BitsBody0.lean ====
/-
  The first kernel (the row normalisation) at one grid point, for any float instance.

  The grid has four points; point `t` is handed the whole weight array (two rows of 512 lanes), rows
  2048·t … 2048·t + 2047 of the features, and a staging buffer for the same rows of the normalised output. The body
  reads the two weight rows and the feature block, and stores ONE value over the whole output block: the block's
  payload, a pure function of the three values read. So after the body the output's staging buffer holds that
  payload (`out0_2`), whatever it held before, and the two input buffers are as they were.

  From that triple: the proof data of the pipeline at any entry contents `V` of the arrays (`dat0`) — what each
  window's buffer holds after the body at each point — and the pipeline's body obligation at every point.
-/
import proofs.«177576_j29703993819980_2_alg».proof.Proof.Gen.Kernel.Launch
import proofs.«177576_j29703993819980_2_alg».proof.Proof.Gen.Kernel.Skeleton
import proofs.«177576_j29703993819980_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weights' staging buffer holds the weight array at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The features' staging buffer holds the point's block of rows. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: a whole 2048×512 block; row 0 and row 1 of the weights. -/
abbrev r0_blk : Rect S2048x512 := Rect.unit (s := S2048x512) ![0, 0] S2048x512.size inb_S2048x512_S2048x512_0_0
abbrev r0_w0 : Rect S2x512 := Rect.unit (s := S2x512) ![0, 0] S1x512.size inb_S2x512_S1x512_0_0
abbrev r0_w1 : Rect S2x512 := Rect.unit (s := S2x512) ![1, 0] S1x512.size inb_S2x512_S1x512_1_0

/-- The output's staging buffer after the body, from the two input buffers: its one store, over the whole block. -/
def out0_2 (x0 : Vec F S2x512 .f32) (x1 : Vec F S2048x512 .f32) : Vec F S2048x512 .bf16 :=
  View.canon [⟨r0_blk, k0_pay1 (View.ld x1 r0_blk) (View.ld x0 r0_w0) (View.ld x0 r0_w1)⟩]

/-- The one store covers the buffer. -/
theorem cover0_2 (p0 : Vec F S2048x512 .bf16) (y : S2048x512.Idx) :
    ∃ pc ∈ ([⟨r0_blk, p0⟩] : List (View.Piece (Elt F) S2048x512 .bf16)), y ∈ pc.1.set :=
  View.cover_of_tiled [⟨r0_blk, p0⟩] S2048x512.size (by rfl) y

set_option maxHeartbeats 1000000 in
/-- The body's triple: on whole staging buffers, the inputs' at contents `x0`, `x1` and the output's at anything,
    it runs to the continuation with the inputs' as they were and the output's at `out0_2 x0 x1`. -/
theorem sound_kernel0 (c : Dev nD) (E : Set ℕ) (i : grid0.Coords) (arg1 : Memref sig .tc .vmem S2x512 .f32) (harg1 : arg1.IsWhole) (arg2 : Memref sig .tc .vmem S2048x512 .f32) (harg2 : arg2.IsWhole) (arg3 : Memref sig .tc .vmem S2048x512 .bf16) (harg3 : arg3.IsWhole)
    (x0 : Vec F S2x512 .f32) (x1 : Vec F S2048x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__norm_kernel i arg1 harg1 arg2 harg2 arg3 harg3) K := by
  simp only [cc0__norm_kernel_eq_skeleton]; unfold cc0__norm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body at point
    `t` each input's buffer at its block and the output's at `out0_2` of the input blocks; the invariant is the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Run

end
-- ==== Proof.BitsBody1.lean ====
/-
  The second kernel (the clamped inner products) at one grid point, for any float instance.

  The grid has 32 points; point `t` is handed rows 256·t … 256·t + 255 of the normalised array, the WHOLE normalised
  array (all 8192 rows), and a staging buffer for rows 256·t … of the 8192×8192 result. The body reads both input
  buffers and stores one value over the whole output block: the block's payload, a pure function of the two values
  read. Both input windows are cut out of ONE array, which the pipeline therefore holds in two halves of its share,
  one half per window (`q` below); the output's array is held whole.
-/
import proofs.«177576_j29703993819980_2_alg».proof.Proof.Gen.Kernel.Launch
import proofs.«177576_j29703993819980_2_alg».proof.Proof.Gen.Kernel.Skeleton
import proofs.«177576_j29703993819980_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the point's rows. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The whole array's staging buffer holds the array at every point, fetched there or not: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each buffer whole. -/
abbrev r1_a : Rect S256x512 := Rect.unit (s := S256x512) ![0, 0] S256x512.size inb_S256x512_S256x512_0_0
abbrev r1_b : Rect S8192x512 := Rect.unit (s := S8192x512) ![0, 0] S8192x512.size inb_S8192x512_S8192x512_0_0
abbrev r1_o : Rect S256x8192 := Rect.unit (s := S256x8192) ![0, 0] S256x8192.size inb_S256x8192_S256x8192_0_0

/-- The output's staging buffer after the body, from the two input buffers: its one store, over the whole block. -/
def out1_2 (x0 : Vec F S256x512 .bf16) (x1 : Vec F S8192x512 .bf16) : Vec F S256x8192 .f32 :=
  View.canon [⟨r1_o, k1_pay1 (View.ld x0 r1_a) (View.ld x1 r1_b)⟩]

/-- The one store covers the buffer. -/
theorem cover1_2 (p0 : Vec F S256x8192 .f32) (y : S256x8192.Idx) :
    ∃ pc ∈ ([⟨r1_o, p0⟩] : List (View.Piece (Elt F) S256x8192 .f32)), y ∈ pc.1.set :=
  View.cover_of_tiled [⟨r1_o, p0⟩] S256x8192.size (by rfl) y

set_option maxHeartbeats 1000000 in
/-- The body's triple: on whole staging buffers, the inputs' at contents `x0`, `x1` and the output's at anything,
    it runs to the continuation with the inputs' as they were and the output's at `out1_2 x0 x1`. -/
theorem sound_kernel1 (c : Dev nD) (E : Set ℕ) (i : grid1.Coords) (arg1 : Memref sig .tc .vmem S256x512 .bf16) (harg1 : arg1.IsWhole) (arg2 : Memref sig .tc .vmem S8192x512 .bf16) (harg2 : arg2.IsWhole) (arg3 : Memref sig .tc .vmem S256x8192 .f32) (harg3 : arg3.IsWhole)
    (x0 : Vec F S256x512 .bf16) (x1 : Vec F S8192x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__sim_kernel i arg1 harg1 arg2 harg2 arg3 harg3) K := by
  simp only [cc1__sim_kernel_eq_skeleton]; unfold cc1__sim_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline on core `c`: the arrays as the region finds them; after the body at point
    `t` each input's buffer at its block and the output's at `out1_2` of the input blocks; the invariant is the scoped
    buffers no window stages and the generator register, untouched; nothing owed; the two input windows, cut out of
    one array, hold it at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Run

end
-- ==== Proof.BitsSplit1.lean ====
/-
  The second kernel's two input windows are cut out of ONE array. At the region's entry that array, held whole,
  is split into the two halves of its share, one per window; at the exit the two halves — both still at the entry
  contents, since an input's array is never written — are joined again. The output's array and every other
  unscoped buffer go through as for a kernel with distinct arrays.
-/
import proofs.«177576_j29703993819980_2_alg».proof.Proof.Gen.Kernel.Launch
import proofs.«177576_j29703993819980_2_alg».proof.Proof.Gen.Kernel.Skeleton
import proofs.«177576_j29703993819980_2_alg».proof.Proof.Gen.Kernel.Points
import proofs.«177576_j29703993819980_2_alg».proof.Proof.BitsBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Split1

variable (V : (c : Dev nD) → (b : Ref sig .tc) → Buf (Elt F) ((c : Thread nD τ).loc b))

/-- The distinct buffers behind the second pipeline's arrays: the normalised array and the result. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0) ↦{fullShare} V' main_v0) ∗ (((c : Thread nD τ).loc main_v1) ↦{fullShare} V' main_v1)) := by
  unfold Pipeline.arrBufs
  exact bigSep_eq_bigSepL_of_eq [main_v0, main_v1] (by decide) (by decide) _

/-- The pipeline's arrays, window by window: the normalised array at its left half, at its right half, the result whole. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  unfold Pipeline.Dat.arrays
  rw [bigSep_W1]
  rw [(arr_whole1 0).set_eq_univ, (arr_whole1 2).set_eq_univ]
  rfl

/-- ENTRY: the core's unscoped buffers at `V` give the pipeline's arrays at their entry contents — the normalised
    array split into the two halves of its share — and the unscoped rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  show iprop((Pipeline.arrBufs spec1 c (V c) : sProp 𝕄) ∗ Pipeline.unscopedRest spec1 c (V c)) ⊢ _
  rw [arrBufs1_eq, arrays1_eq]
  iintro ⟨⟨H0, H1⟩, Hr⟩
  ihave H0' := (pointsTo_share (PosShare.mem_left_op_right fullShare)).1 $$ H0
  icases H0' with ⟨Ha, Hb⟩
  isplitr [Hr]
  · isplitl [Ha]; · iexact Ha
    isplitl [Hb]; · iexact Hb
    iexact H1
  iexact Hr

/-- EXIT: the pipeline's arrays at contents `Fa` — both halves of the normalised array at one contents — and the
    unscoped rest at `V` are the core's unscoped buffers at any valuation `V'` that has the arrays at `Fa` and agrees
    with `V` off the result array. -/
theorem unscopedBufs1_of_arrays (c : Dev nD) (V' : (b : Ref sig .tc) → Buf (Elt F) ((c : Thread nD τ).loc b))
    (Fa : (w : Fin cfg1.W) → Buf (Elt F) ((cfg1.win w).arr.view.loc (c : Thread nD τ)))
    (h0 : Fa 0 = V' main_v0) (h1 : Fa 1 = V' main_v0) (h2 : Fa 2 = V' main_v1)
    (hrest : ∀ b, b ∉ Finset.univ.image (Pipeline.arrRef spec1) → V' b = V c b) :
    iprop((dat1 V c).arrays Fa ∗ Pipeline.unscopedRest spec1 c (V c)) ⊢ (unscopedBufs c V' : sProp 𝕄) := by
  rw [Pipeline.unscopedBufs_split₀ cfgs 1 winFacts₀1.arr_unscoped c V']
  show _ ⊢ iprop((Pipeline.arrBufs spec1 c V' : sProp 𝕄) ∗ Pipeline.unscopedRest spec1 c V')
  rw [arrBufs1_eq, arrays1_eq, h0, h1, h2]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨Ha, Hb, H1⟩, Hr⟩
  isplitr [Hr]
  · isplitr [H1]
    · iapply (pointsTo_share (PosShare.mem_left_op_right fullShare)).2
      isplitl [Ha]; · iexact Ha
      iexact Hb
    iexact H1
  iexact Hr

end Split1

end Cert.Kernel.Run

end
-- ==== Proof.BitsRun.lean ====
/-
  The whole program as two kernel regions, one after the other, for any float instance.

  The unscoped buffers are followed through the program as one valuation per boundary: at launch the memory `m`
  (`W0`); after the first region the normalised array holds what the first pipeline's write-backs leave and every
  other buffer is as launched (`W2`); after the second region the result array holds what the second pipeline's
  write-backs leave (`W4`). Each region is entered by splitting its arrays out of the unscoped buffers and left by
  putting them back; the generator register and the (empty) debt of the core ride along. The run's post reads every
  unscoped buffer of the final memory off `W4`: the result array at the second pipeline's final contents, the two
  arguments as launched.
-/
import proofs.«177576_j29703993819980_2_alg».proof.Proof.Gen.Kernel.Launch
import proofs.«177576_j29703993819980_2_alg».proof.Proof.Gen.Kernel.Skeleton
import proofs.«177576_j29703993819980_2_alg».proof.Proof.Gen.Kernel.Points
import proofs.«177576_j29703993819980_2_alg».proof.Proof.BitsBody0
import proofs.«177576_j29703993819980_2_alg».proof.Proof.BitsSplit1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references (what the first pipeline's proof data take). -/
abbrev V0 : (c : Dev nD) → (b : Ref sig .tc) → Buf (Elt F) ((c : Thread nD τ).loc b) := fun c b => W0 m ρ c b
/-- After the first region: its arrays at what the pipeline leaves, every other buffer as entered. -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
/-- The same read at the TensorCore's references (the first region's exit, the second's entry). -/
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- After the second region: the result array at what the second pipeline leaves, every other buffer as entered. -/
def W4 (c : Dev nD) : Valuation τ sig (Elt F) :=
  Function.update (W2 m ρ c) (Proc.devRef .tc main_v1) ((dat1 (V2 m ρ) c).arrAt 2 cfg1.N)
abbrev V4 : (c : Dev nD) → (b : Ref sig .tc) → Buf (Elt F) ((c : Thread nD τ).loc b) := fun c b => W4 m ρ c b
theorem W4_main_v1 (c : Dev nD) : W4 m ρ c (Proc.devRef .tc main_v1) = (dat1 (V2 m ρ) c).arrAt 2 cfg1.N := by
  unfold W4; exact Function.update_self ..
theorem W4_of_ne (c : Dev nD) (b : Ref sig .tc) (hb : b ≠ main_v1) :
    W4 m ρ c (Proc.devRef .tc b) = W2 m ρ c (Proc.devRef .tc b) := by
  unfold W4; exact Function.update_of_ne (StableHlo.devRef_ne_of_ne hb) ..

/-- The arguments end as launched: the first region reads them through input windows, the second bypasses them. -/
theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W0 m ρ c (Proc.devRef .tc main_arg0) := (W2_arr m ρ c 1).trans (((dat0 (V0 m ρ) c).arrAt_in 1 rfl _).trans (A_eq0 (V0 m ρ) c 1))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 0).trans (((dat0 (V0 m ρ) c).arrAt_in 0 rfl _).trans (A_eq0 (V0 m ρ) c 0))
    _ = m ((c : Thread nD τ).loc main_arg1) := rfl
/-- The normalised array, as the second region finds it, is what the first pipeline leaves in it. -/
theorem V2_main_v0 (c : Dev nD) : V2 m ρ c main_v0 = (dat0 (V0 m ρ) c).arrAt 2 cfg0.N := W2_arr m ρ c 2

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at `W4`, the generator register at some state. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The first region: entered from every unscoped buffer at `W0`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays1_of_unscopedBufs (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V2 m ρ c))
        ⊢ (unscopedBufs c (V4 m ρ c) : sProp 𝕄) := unscopedBufs1_of_arrays (V2 m ρ) c (V4 m ρ c) ((dat1 (V2 m ρ) c).arrAt · cfg1.N)
      (((dat1 (V2 m ρ) c).arrAt_in 0 rfl _).trans ((A_eq1 (V2 m ρ) c 0).trans (W4_of_ne m ρ c main_v0 (by decide)).symm))
      (((dat1 (V2 m ρ) c).arrAt_in 1 rfl _).trans ((A_eq1 (V2 m ρ) c 1).trans (W4_of_ne m ρ c main_v0 (by decide)).symm))
      (W4_main_v1 m ρ c).symm
      (fun b hb => W4_of_ne m ρ c b fun e => hb (Finset.mem_image.mpr ⟨2, Finset.mem_univ _, e.symm⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments in order. -/
abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final memory holds every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run read at the program's arrays: the result at the second pipeline's final contents, the arguments as launched. -/
theorem run_main : θ_run defs (onTc (τ := τ) (main (F := F))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W4_main_v1 m ρ c),
     (h c _ (mem_uc main_arg0 (by decide))).trans (W4_main_arg0 m ρ c),
     (h c _ (mem_uc main_arg1 (by decide))).trans (W4_main_arg1 m ρ c)⟩) (run_all m ρ)

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Run

end
-- ==== Proof.IdealBody0.lean ====
/-
  The first kernel (the row normalisation) at one grid point, for any float instance.

  The grid has four points; point `t` is handed the whole weight array (two rows of 512 lanes), rows
  2048·t … 2048·t + 2047 of the features, and a staging buffer for the same rows of the normalised output. The body
  reads the two weight rows and the feature block, and stores ONE value over the whole output block: the block's
  payload, a pure function of the three values read. So after the body the output's staging buffer holds that
  payload (`out0_2`), whatever it held before, and the two input buffers are as they were.

  From that triple: the proof data of the pipeline at any entry contents `V` of the arrays (`dat0`) — what each
  window's buffer holds after the body at each point — and the pipeline's body obligation at every point.
-/
import proofs.«177576_j29703993819980_2_alg».proof.Proof.Gen.KernelIdeal.Launch
import proofs.«177576_j29703993819980_2_alg».proof.Proof.Gen.KernelIdeal.Skeleton
import proofs.«177576_j29703993819980_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weights' staging buffer holds the weight array at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The features' staging buffer holds the point's block of rows. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: a whole 2048×512 block; row 0 and row 1 of the weights. -/
abbrev r0_blk : Rect S2048x512 := Rect.unit (s := S2048x512) ![0, 0] S2048x512.size inb_S2048x512_S2048x512_0_0
abbrev r0_w0 : Rect S2x512 := Rect.unit (s := S2x512) ![0, 0] S1x512.size inb_S2x512_S1x512_0_0
abbrev r0_w1 : Rect S2x512 := Rect.unit (s := S2x512) ![1, 0] S1x512.size inb_S2x512_S1x512_1_0

/-- The output's staging buffer after the body, from the two input buffers: its one store, over the whole block. -/
def out0_2 (x0 : Vec F S2x512 .f32) (x1 : Vec F S2048x512 .f32) : Vec F S2048x512 .bf16 :=
  View.canon [⟨r0_blk, k0_pay1 (View.ld x1 r0_blk) (View.ld x0 r0_w0) (View.ld x0 r0_w1)⟩]

/-- The one store covers the buffer. -/
theorem cover0_2 (p0 : Vec F S2048x512 .bf16) (y : S2048x512.Idx) :
    ∃ pc ∈ ([⟨r0_blk, p0⟩] : List (View.Piece (Elt F) S2048x512 .bf16)), y ∈ pc.1.set :=
  View.cover_of_tiled [⟨r0_blk, p0⟩] S2048x512.size (by rfl) y

set_option maxHeartbeats 1000000 in
/-- The body's triple: on whole staging buffers, the inputs' at contents `x0`, `x1` and the output's at anything,
    it runs to the continuation with the inputs' as they were and the output's at `out0_2 x0 x1`. -/
theorem sound_kernel0 (c : Dev nD) (E : Set ℕ) (i : grid0.Coords) (arg1 : Memref sig .tc .vmem S2x512 .f32) (harg1 : arg1.IsWhole) (arg2 : Memref sig .tc .vmem S2048x512 .f32) (harg2 : arg2.IsWhole) (arg3 : Memref sig .tc .vmem S2048x512 .bf16) (harg3 : arg3.IsWhole)
    (x0 : Vec F S2x512 .f32) (x1 : Vec F S2048x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__norm_kernel i arg1 harg1 arg2 harg2 arg3 harg3) K := by
  simp only [cc0__norm_kernel_eq_skeleton]; unfold cc0__norm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body at point
    `t` each input's buffer at its block and the output's at `out0_2` of the input blocks; the invariant is the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Run

end
-- ==== Proof.IdealBody1.lean ====
/-
  The second kernel (the clamped inner products) at one grid point, for any float instance.

  The grid has 32 points; point `t` is handed rows 256·t … 256·t + 255 of the normalised array, the WHOLE normalised
  array (all 8192 rows), and a staging buffer for rows 256·t … of the 8192×8192 result. The body reads both input
  buffers and stores one value over the whole output block: the block's payload, a pure function of the two values
  read. Both input windows are cut out of ONE array, which the pipeline therefore holds in two halves of its share,
  one half per window (`q` below); the output's array is held whole.
-/
import proofs.«177576_j29703993819980_2_alg».proof.Proof.Gen.KernelIdeal.Launch
import proofs.«177576_j29703993819980_2_alg».proof.Proof.Gen.KernelIdeal.Skeleton
import proofs.«177576_j29703993819980_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the point's rows. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The whole array's staging buffer holds the array at every point, fetched there or not: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each buffer whole. -/
abbrev r1_a : Rect S256x512 := Rect.unit (s := S256x512) ![0, 0] S256x512.size inb_S256x512_S256x512_0_0
abbrev r1_b : Rect S8192x512 := Rect.unit (s := S8192x512) ![0, 0] S8192x512.size inb_S8192x512_S8192x512_0_0
abbrev r1_o : Rect S256x8192 := Rect.unit (s := S256x8192) ![0, 0] S256x8192.size inb_S256x8192_S256x8192_0_0

/-- The output's staging buffer after the body, from the two input buffers: its one store, over the whole block. -/
def out1_2 (x0 : Vec F S256x512 .bf16) (x1 : Vec F S8192x512 .bf16) : Vec F S256x8192 .f32 :=
  View.canon [⟨r1_o, k1_pay1 (View.ld x0 r1_a) (View.ld x1 r1_b)⟩]

/-- The one store covers the buffer. -/
theorem cover1_2 (p0 : Vec F S256x8192 .f32) (y : S256x8192.Idx) :
    ∃ pc ∈ ([⟨r1_o, p0⟩] : List (View.Piece (Elt F) S256x8192 .f32)), y ∈ pc.1.set :=
  View.cover_of_tiled [⟨r1_o, p0⟩] S256x8192.size (by rfl) y

set_option maxHeartbeats 1000000 in
/-- The body's triple: on whole staging buffers, the inputs' at contents `x0`, `x1` and the output's at anything,
    it runs to the continuation with the inputs' as they were and the output's at `out1_2 x0 x1`. -/
theorem sound_kernel1 (c : Dev nD) (E : Set ℕ) (i : grid1.Coords) (arg1 : Memref sig .tc .vmem S256x512 .bf16) (harg1 : arg1.IsWhole) (arg2 : Memref sig .tc .vmem S8192x512 .bf16) (harg2 : arg2.IsWhole) (arg3 : Memref sig .tc .vmem S256x8192 .f32) (harg3 : arg3.IsWhole)
    (x0 : Vec F S256x512 .bf16) (x1 : Vec F S8192x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__sim_kernel i arg1 harg1 arg2 harg2 arg3 harg3) K := by
  simp only [cc1__sim_kernel_eq_skeleton]; unfold cc1__sim_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline on core `c`: the arrays as the region finds them; after the body at point
    `t` each input's buffer at its block and the output's at `out1_2` of the input blocks; the invariant is the scoped
    buffers no window stages and the generator register, untouched; nothing owed; the two input windows, cut out of
    one array, hold it at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Run

end
-- ==== Proof.IdealSplit1.lean ====
/-
  The second kernel's two input windows are cut out of ONE array. At the region's entry that array, held whole,
  is split into the two halves of its share, one per window; at the exit the two halves — both still at the entry
  contents, since an input's array is never written — are joined again. The output's array and every other
  unscoped buffer go through as for a kernel with distinct arrays.
-/
import proofs.«177576_j29703993819980_2_alg».proof.Proof.Gen.KernelIdeal.Launch
import proofs.«177576_j29703993819980_2_alg».proof.Proof.Gen.KernelIdeal.Skeleton
import proofs.«177576_j29703993819980_2_alg».proof.Proof.Gen.KernelIdeal.Points
import proofs.«177576_j29703993819980_2_alg».proof.Proof.IdealBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Split1

variable (V : (c : Dev nD) → (b : Ref sig .tc) → Buf (Elt F) ((c : Thread nD τ).loc b))

/-- The distinct buffers behind the second pipeline's arrays: the normalised array and the result. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0) ↦{fullShare} V' main_v0) ∗ (((c : Thread nD τ).loc main_v1) ↦{fullShare} V' main_v1)) := by
  unfold Pipeline.arrBufs
  exact bigSep_eq_bigSepL_of_eq [main_v0, main_v1] (by decide) (by decide) _

/-- The pipeline's arrays, window by window: the normalised array at its left half, at its right half, the result whole. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  unfold Pipeline.Dat.arrays
  rw [bigSep_W1]
  rw [(arr_whole1 0).set_eq_univ, (arr_whole1 2).set_eq_univ]
  rfl

/-- ENTRY: the core's unscoped buffers at `V` give the pipeline's arrays at their entry contents — the normalised
    array split into the two halves of its share — and the unscoped rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  show iprop((Pipeline.arrBufs spec1 c (V c) : sProp 𝕄) ∗ Pipeline.unscopedRest spec1 c (V c)) ⊢ _
  rw [arrBufs1_eq, arrays1_eq]
  iintro ⟨⟨H0, H1⟩, Hr⟩
  ihave H0' := (pointsTo_share (PosShare.mem_left_op_right fullShare)).1 $$ H0
  icases H0' with ⟨Ha, Hb⟩
  isplitr [Hr]
  · isplitl [Ha]; · iexact Ha
    isplitl [Hb]; · iexact Hb
    iexact H1
  iexact Hr

/-- EXIT: the pipeline's arrays at contents `Fa` — both halves of the normalised array at one contents — and the
    unscoped rest at `V` are the core's unscoped buffers at any valuation `V'` that has the arrays at `Fa` and agrees
    with `V` off the result array. -/
theorem unscopedBufs1_of_arrays (c : Dev nD) (V' : (b : Ref sig .tc) → Buf (Elt F) ((c : Thread nD τ).loc b))
    (Fa : (w : Fin cfg1.W) → Buf (Elt F) ((cfg1.win w).arr.view.loc (c : Thread nD τ)))
    (h0 : Fa 0 = V' main_v0) (h1 : Fa 1 = V' main_v0) (h2 : Fa 2 = V' main_v1)
    (hrest : ∀ b, b ∉ Finset.univ.image (Pipeline.arrRef spec1) → V' b = V c b) :
    iprop((dat1 V c).arrays Fa ∗ Pipeline.unscopedRest spec1 c (V c)) ⊢ (unscopedBufs c V' : sProp 𝕄) := by
  rw [Pipeline.unscopedBufs_split₀ cfgs 1 winFacts₀1.arr_unscoped c V']
  show _ ⊢ iprop((Pipeline.arrBufs spec1 c V' : sProp 𝕄) ∗ Pipeline.unscopedRest spec1 c V')
  rw [arrBufs1_eq, arrays1_eq, h0, h1, h2]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨Ha, Hb, H1⟩, Hr⟩
  isplitr [Hr]
  · isplitr [H1]
    · iapply (pointsTo_share (PosShare.mem_left_op_right fullShare)).2
      isplitl [Ha]; · iexact Ha
      iexact Hb
    iexact H1
  iexact Hr

end Split1

end Cert.KernelIdeal.Run

end
-- ==== Proof.IdealRun.lean ====
/-
  The whole program as two kernel regions, one after the other, for any float instance.

  The unscoped buffers are followed through the program as one valuation per boundary: at launch the memory `m`
  (`W0`); after the first region the normalised array holds what the first pipeline's write-backs leave and every
  other buffer is as launched (`W2`); after the second region the result array holds what the second pipeline's
  write-backs leave (`W4`). Each region is entered by splitting its arrays out of the unscoped buffers and left by
  putting them back; the generator register and the (empty) debt of the core ride along. The run's post reads every
  unscoped buffer of the final memory off `W4`: the result array at the second pipeline's final contents, the two
  arguments as launched.
-/
import proofs.«177576_j29703993819980_2_alg».proof.Proof.Gen.KernelIdeal.Launch
import proofs.«177576_j29703993819980_2_alg».proof.Proof.Gen.KernelIdeal.Skeleton
import proofs.«177576_j29703993819980_2_alg».proof.Proof.Gen.KernelIdeal.Points
import proofs.«177576_j29703993819980_2_alg».proof.Proof.IdealBody0
import proofs.«177576_j29703993819980_2_alg».proof.Proof.IdealSplit1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references (what the first pipeline's proof data take). -/
abbrev V0 : (c : Dev nD) → (b : Ref sig .tc) → Buf (Elt F) ((c : Thread nD τ).loc b) := fun c b => W0 m ρ c b
/-- After the first region: its arrays at what the pipeline leaves, every other buffer as entered. -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
/-- The same read at the TensorCore's references (the first region's exit, the second's entry). -/
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- After the second region: the result array at what the second pipeline leaves, every other buffer as entered. -/
def W4 (c : Dev nD) : Valuation τ sig (Elt F) :=
  Function.update (W2 m ρ c) (Proc.devRef .tc main_v1) ((dat1 (V2 m ρ) c).arrAt 2 cfg1.N)
abbrev V4 : (c : Dev nD) → (b : Ref sig .tc) → Buf (Elt F) ((c : Thread nD τ).loc b) := fun c b => W4 m ρ c b
theorem W4_main_v1 (c : Dev nD) : W4 m ρ c (Proc.devRef .tc main_v1) = (dat1 (V2 m ρ) c).arrAt 2 cfg1.N := by
  unfold W4; exact Function.update_self ..
theorem W4_of_ne (c : Dev nD) (b : Ref sig .tc) (hb : b ≠ main_v1) :
    W4 m ρ c (Proc.devRef .tc b) = W2 m ρ c (Proc.devRef .tc b) := by
  unfold W4; exact Function.update_of_ne (StableHlo.devRef_ne_of_ne hb) ..

/-- The arguments end as launched: the first region reads them through input windows, the second bypasses them. -/
theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W0 m ρ c (Proc.devRef .tc main_arg0) := (W2_arr m ρ c 1).trans (((dat0 (V0 m ρ) c).arrAt_in 1 rfl _).trans (A_eq0 (V0 m ρ) c 1))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 0).trans (((dat0 (V0 m ρ) c).arrAt_in 0 rfl _).trans (A_eq0 (V0 m ρ) c 0))
    _ = m ((c : Thread nD τ).loc main_arg1) := rfl
/-- The normalised array, as the second region finds it, is what the first pipeline leaves in it. -/
theorem V2_main_v0 (c : Dev nD) : V2 m ρ c main_v0 = (dat0 (V0 m ρ) c).arrAt 2 cfg0.N := W2_arr m ρ c 2

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at `W4`, the generator register at some state. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The first region: entered from every unscoped buffer at `W0`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays1_of_unscopedBufs (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V2 m ρ c))
        ⊢ (unscopedBufs c (V4 m ρ c) : sProp 𝕄) := unscopedBufs1_of_arrays (V2 m ρ) c (V4 m ρ c) ((dat1 (V2 m ρ) c).arrAt · cfg1.N)
      (((dat1 (V2 m ρ) c).arrAt_in 0 rfl _).trans ((A_eq1 (V2 m ρ) c 0).trans (W4_of_ne m ρ c main_v0 (by decide)).symm))
      (((dat1 (V2 m ρ) c).arrAt_in 1 rfl _).trans ((A_eq1 (V2 m ρ) c 1).trans (W4_of_ne m ρ c main_v0 (by decide)).symm))
      (W4_main_v1 m ρ c).symm
      (fun b hb => W4_of_ne m ρ c b fun e => hb (Finset.mem_image.mpr ⟨2, Finset.mem_univ _, e.symm⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments in order. -/
abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final memory holds every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run read at the program's arrays: the result at the second pipeline's final contents, the arguments as launched. -/
theorem run_main : θ_run defs (onTc (τ := τ) (main (F := F))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W4_main_v1 m ρ c),
     (h c _ (mem_uc main_arg0 (by decide))).trans (W4_main_arg0 m ρ c),
     (h c _ (mem_uc main_arg1 (by decide))).trans (W4_main_arg1 m ρ c)⟩) (run_all m ρ)

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Run

end
-- ==== Proof.Spec.lean ====
/-
  The function both programs compute, over the extended reals.

  A row `x` of the features is scaled lane by lane by the first weight row, clamped below at zero, and scaled by the
  second weight row (`scaled`); the row is then divided, lane by lane, by the larger of its Euclidean norm — the square
  root of the sum of the squares of its 512 lanes — and a fixed positive word (`normRow`). The result at (n, m) is the
  inner product of normalised row n with normalised row m, clamped below at zero (`simEntry`, `Sim`).

  The two float words that occur (zero, and the clamp on the norm) are kept as the binary words the programs share:
  both sides mention the same word, so neither is ever evaluated.
-/
import Idealize.ShloMosaic.PureOps.Ideal
import Idealize.ShloMosaic.Lib.ValueIdx

noncomputable section

namespace Cert.Spec

open Idealize.ShloMosaic Idealize.ShloMosaic.ValueIdx

/-- The features' and the normalised rows' shape, the weights', and the result's. -/
abbrev SRows : Shape := ⟨2, ![8192, 512]⟩
abbrev SWeights : Shape := ⟨2, ![2, 512]⟩
abbrev SSims : Shape := ⟨2, ![8192, 8192]⟩

/-- A lane of a row after both scalings: `max (x·w₀) 0 · w₁`. -/
def scaled (x w0 w1 : Fin 512 → EReal) (d : Fin 512) : EReal :=
  max (x d * w0 d) (Ideal.ofBits .f32 0x00000000#32) * w1 d

/-- The sum of the squares of a scaled row's lanes. -/
def sumSq (x w0 w1 : Fin 512 → EReal) : EReal :=
  ∑ k : Fin 512, scaled x w0 w1 k * scaled x w0 w1 k

/-- A lane of the normalised row: the scaled lane over `max (√(sum of squares)) ε`. -/
def normRow (x w0 w1 : Fin 512 → EReal) (d : Fin 512) : EReal :=
  Ideal.div (scaled x w0 w1 d) (max (Ideal.sqrt (sumSq x w0 w1)) (Ideal.ofBits .f32 0x2B8CBCCC#32))

/-- The clamped inner product of two rows. -/
def simEntry (u v : Fin 512 → EReal) : EReal :=
  max (∑ k : Fin 512, u k * v k) (Ideal.ofBits .f32 0x00000000#32)

/-- The normalised rows as one array: row `n` of the features through `normRow` with the two weight rows. -/
def Z (f : SRows.Idx → EReal) (w : SWeights.Idx → EReal) : SRows.Idx → EReal :=
  fun j => normRow (fun d => f (ix2 (j 0) d)) (fun d => w (ix2 (0 : Fin 2) d)) (fun d => w (ix2 (1 : Fin 2) d)) (j 1)

/-- All clamped inner products of the rows of `z`. -/
def Sim (z : SRows.Idx → EReal) : SSims.Idx → EReal :=
  fun j => simEntry (fun k => z (ix2 (j 0) k)) (fun k => z (ix2 (j 1) k))

theorem Z_apply (f : SRows.Idx → EReal) (w : SWeights.Idx → EReal) (n : Fin 8192) (d : Fin 512) :
    Z f w (ix2 n d) = normRow (fun d => f (ix2 n d)) (fun d => w (ix2 (0 : Fin 2) d)) (fun d => w (ix2 (1 : Fin 2) d)) d := rfl

theorem Sim_apply (z : SRows.Idx → EReal) (n m : Fin 8192) :
    Sim z (ix2 n m) = simEntry (fun k => z (ix2 n k)) (fun k => z (ix2 m k)) := rfl

end Cert.Spec

end
-- ==== Proof.Payload.lean ====
/-
  The two kernel payloads read at an index, over the extended reals.

  The normalising kernel's stored block is, lane by lane, the specification's `normRow` of the block's row and the two
  weight rows: the pointwise operations read through at the index, each weight row's flatten-and-restore is the
  identity and its broadcast reads the one row, the lane sum is the sum over the row's 512 lanes, and the keepdims
  column (a cast `[2048] → [2048, 1]` and a broadcast `[2048, 1] → [2048, 512]`) reads the row's own entry.

  The similarity kernel's stored block is, entry by entry, the specification's `simEntry` of a row of its left block and
  a row of the whole right array: the contraction over the one shared axis, accumulated into zero, re-indexed by that
  axis's coordinate, then clamped below at zero.
-/
import proofs.«177576_j29703993819980_2_alg».proof.Proof.Gen.KernelIdeal.Skeleton
import proofs.«177576_j29703993819980_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

variable {α : Type}

/-! ## The two keepdims column forms, read at an index -/

/-- A `[2048]` array cast to the column `[2048, 1]` reads, at `(i, u)`, the operand at `i`, whatever the unit
    coordinate `u`. -/
theorem shapeCast_col_apply (x : S2048.Idx → α) (h : S2048.ShapeCasts S2048x1) (i : Fin 2048) (u : Fin 1) :
    shapeCast S2048x1 x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[2048, 1]` column broadcast to `[2048, 512]` reads, at `(p, c)`, the column's entry of row `p`. -/
theorem broadcastTo_col_apply (v : S2048x1.Idx → α) (h : S2048x1.Broadcasts S2048x512) (p : Fin 2048) (c : Fin 512) :
    broadcastTo S2048x512 v h (ix2 p c) = v (ix2 p (0 : Fin 1)) := by
  refine broadcastTo_apply v h (ix2 p c) (ix2 p (0 : Fin 1)) fun ax => ?_
  match ax with
  | ⟨0, _⟩ =>
    show p.val = if (2048 : ℕ) = 1 then 0 else p.val
    rw [if_neg (by decide)]
  | ⟨1, _⟩ =>
    show 0 = if (1 : ℕ) = 1 then 0 else c.val
    rw [if_pos rfl]

/-! ## The lane sum -/

/-- The sum over the lane axis of a `[2048, 512]` array, at row `p`, is the sum of that row's 512 lanes. -/
theorem laneSum_apply (v : FVec Ideal S2048x512 .f32) (h : S2048x512.Reduces [1] S2048) (hφ : FKind.Formats .f32)
    (hacc : (0x00000000#32 : BitVec 32) = FKind.add.neutral .f32 hφ) (p : Fin 2048) :
    multiReduction (F := Ideal) .add [1] S2048 v 0x00000000#32 h hφ hacc (ix1 p) = ∑ k : Fin 512, v (ix2 p k) := by
  refine (Ideal.multiReduction_add_single v 0x00000000#32 h hφ hacc (ix1 p)).trans ?_
  refine Finset.sum_congr rfl fun k _ => ?_
  exact congrArg v (funext fun ax => Fin.ext (by match ax with | ⟨0, _⟩ => rfl | ⟨1, _⟩ => rfl))

/-! ## The scaled rows -/

/-- The rows after both scalings, as the kernel computes them: each weight row is flattened, restored and broadcast
    over the 2048 rows; the first product is clamped below at zero before the second. -/
def scaledRows (x : FVec Ideal S2048x512 .f32) (w0 w1 : FVec Ideal S1x512 .f32) : FVec Ideal S2048x512 .f32 :=
  mulf
    (maximumf
      (mulf x (broadcastTo S2048x512 (shapeCast S1x512 (shapeCast S512 w0 shapeCasts_S1x512_S512) shapeCasts_S512_S1x512)
        broadcasts_S1x512_S2048x512))
      (broadcast S2048x512 (Scalar.ofBits (F := Ideal) .f32 0x00000000#32)))
    (broadcastTo S2048x512 (shapeCast S1x512 (shapeCast S512 w1 shapeCasts_S1x512_S512) shapeCasts_S512_S1x512)
      broadcasts_S1x512_S2048x512)

/-- A scaled row's lane is the specification's `scaled` of the row and the two weight rows. -/
theorem scaledRows_apply (x : FVec Ideal S2048x512 .f32) (w0 w1 : FVec Ideal S1x512 .f32) (p : Fin 2048) (d : Fin 512) :
    scaledRows x w0 w1 (ix2 p d)
      = Cert.Spec.scaled (fun d => x (ix2 p d)) (fun d => w0 (ix2 (0 : Fin 1) d)) (fun d => w1 (ix2 (0 : Fin 1) d)) d := by
  unfold scaledRows
  rw [shapeCast_shapeCast, shapeCast_shapeCast]
  show max (x (ix2 p d) * broadcastTo S2048x512 w0 broadcasts_S1x512_S2048x512 (ix2 p d)) (Ideal.ofBits .f32 0x00000000#32)
      * broadcastTo S2048x512 w1 broadcasts_S1x512_S2048x512 (ix2 p d) = _
  rw [broadcastTo_1b_ab_apply, broadcastTo_1b_ab_apply]
  rfl

/-- The normalising kernel's stored value at `(p, q)`: lane `q` of row `p` after both scalings, over the larger of the
    row's Euclidean norm and the fixed positive word. -/
theorem norm_payload (x : Vec Ideal S2048x512 .f32) (w0 w1 : Vec Ideal S1x512 .f32) (p : Fin 2048) (q : Fin 512) :
    k0_pay1 (F := Ideal) x w0 w1 (ix2 p q)
      = Cert.Spec.normRow (fun d => x (ix2 p d)) (fun d => w0 (ix2 (0 : Fin 1) d)) (fun d => w1 (ix2 (0 : Fin 1) d)) q := by
  unfold k0_pay1 Cert.Spec.normRow Cert.Spec.sumSq
  refine congrArg₂ Ideal.div (scaledRows_apply x w0 w1 p q) ?_
  refine (broadcastTo_col_apply _ broadcasts_S2048x1_S2048x512 p q).trans ?_
  refine congrArg (max · (Ideal.ofBits .f32 0x2B8CBCCC#32)) ?_
  refine congrArg Ideal.sqrt ?_
  refine (shapeCast_col_apply _ shapeCasts_S2048_S2048x1 p (0 : Fin 1)).trans ?_
  refine (laneSum_apply _ reduces_S2048x512_S2048 (.inl rfl) rfl p).trans ?_
  refine Finset.sum_congr rfl fun k _ => ?_
  exact congrArg₂ (· * ·) (scaledRows_apply x w0 w1 p k) (scaledRows_apply x w0 w1 p k)

/-- The left operand's index of the contraction at output `(p, q)` keeps the row `p` … -/
theorem lhs_row (i : S256x8192.Idx) (c : dot_S256x512_S8192x512_S256x8192_1_1_0_0_n_n.contr.Idx) :
    (dot_S256x512_S8192x512_S256x8192_1_1_0_0_n_n.lhsIdx i c 0).val = (i 0).val := by
  unfold DotDims.lhsIdx
  rw [dif_neg (show ¬(0 : Fin S256x512.rank) ∈ dot_S256x512_S8192x512_S256x8192_1_1_0_0_n_n.lhsBatch by decide),
    dif_pos (show (0 : Fin S256x512.rank) ∈ dot_S256x512_S8192x512_S256x8192_1_1_0_0_n_n.lhsNonContracting by decide)]
  rfl

/-- … and reads the contraction coordinate on its lane axis. -/
theorem lhs_lane (i : S256x8192.Idx) (c : dot_S256x512_S8192x512_S256x8192_1_1_0_0_n_n.contr.Idx) :
    (dot_S256x512_S8192x512_S256x8192_1_1_0_0_n_n.lhsIdx i c 1).val = (c ⟨0, by decide⟩).val :=
  dot_S256x512_S8192x512_S256x8192_1_1_0_0_n_n.lhsIdx_val_of_single rfl i c

/-- The right operand's index keeps the output column `q` as its row … -/
theorem rhs_row (i : S256x8192.Idx) (c : dot_S256x512_S8192x512_S256x8192_1_1_0_0_n_n.contr.Idx) :
    (dot_S256x512_S8192x512_S256x8192_1_1_0_0_n_n.rhsIdx i c 0).val = (i 1).val := by
  unfold DotDims.rhsIdx
  rw [dif_neg (show ¬(0 : Fin S8192x512.rank) ∈ dot_S256x512_S8192x512_S256x8192_1_1_0_0_n_n.rhsBatch by decide),
    dif_pos (show (0 : Fin S8192x512.rank) ∈ dot_S256x512_S8192x512_S256x8192_1_1_0_0_n_n.rhsNonContracting by decide)]
  rfl

/-- … and reads the contraction coordinate on its lane axis. -/
theorem rhs_lane (i : S256x8192.Idx) (c : dot_S256x512_S8192x512_S256x8192_1_1_0_0_n_n.contr.Idx) :
    (dot_S256x512_S8192x512_S256x8192_1_1_0_0_n_n.rhsIdx i c 1).val = (c ⟨0, by decide⟩).val :=
  dot_S256x512_S8192x512_S256x8192_1_1_0_0_n_n.rhsIdx_val_of_single rfl i c

/-- The product of a `[256, 512]` block with the transpose of an `[8192, 512]` array, accumulated into zero, is at
    `(p, q)` the inner product of row `p` of the one with row `q` of the other. -/
theorem matmul_rows (a : FVec Ideal S256x512 .bf16) (b : FVec Ideal S8192x512 .bf16) (p : Fin 256) (q : Fin 8192) :
    FloatOps.matmul dot_S256x512_S8192x512_S256x8192_1_1_0_0_n_n none a b (constant (F := Ideal) S256x8192 .f32 0x00000000#32) (ix2 p q)
      = ∑ k : Fin 512, a (ix2 p k) * b (ix2 q k) := by
  rw [Ideal.matmul_constant_zero_apply,
    ← Equiv.sum_comp (contrEquiv1 dot_S256x512_S8192x512_S256x8192_1_1_0_0_n_n 512 rfl rfl).symm]
  refine Finset.sum_congr rfl fun k _ => ?_
  have hk := contrEquiv1_symm_val dot_S256x512_S8192x512_S256x8192_1_1_0_0_n_n 512 rfl rfl k
  have el : dot_S256x512_S8192x512_S256x8192_1_1_0_0_n_n.lhsIdx (ix2 p q)
      ((contrEquiv1 dot_S256x512_S8192x512_S256x8192_1_1_0_0_n_n 512 rfl rfl).symm k) = ix2 p k :=
    funext fun ax => Fin.ext (by
      match ax with
      | ⟨0, _⟩ => exact lhs_row _ _
      | ⟨1, _⟩ => exact (lhs_lane _ _).trans hk)
  have er : dot_S256x512_S8192x512_S256x8192_1_1_0_0_n_n.rhsIdx (ix2 p q)
      ((contrEquiv1 dot_S256x512_S8192x512_S256x8192_1_1_0_0_n_n 512 rfl rfl).symm k) = ix2 q k :=
    funext fun ax => Fin.ext (by
      match ax with
      | ⟨0, _⟩ => exact rhs_row _ _
      | ⟨1, _⟩ => exact (rhs_lane _ _).trans hk)
  rw [el, er]

/-- The similarity kernel's stored value at `(p, q)`: the clamped inner product of row `p` of its block with row `q` of
    the whole array of normalised rows. -/
theorem sim_payload (a : Vec Ideal S256x512 .bf16) (b : Vec Ideal S8192x512 .bf16) (p : Fin 256) (q : Fin 8192) :
    k1_pay1 (F := Ideal) a b (ix2 p q) = Cert.Spec.simEntry (fun k => a (ix2 p k)) (fun k => b (ix2 q k)) := by
  unfold k1_pay1
  rw [shapeCast_self, shapeCast_self]
  exact congrArg (max · (Ideal.ofBits .f32 0x00000000#32)) (matmul_rows a b p q)

end Cert.KernelIdeal.Payload

end
-- ==== Proof.Blocks0.lean ====
/-
  From the blocks to the array, for the first kernel (the row normalisation), over the extended reals.

  The grid's point `t` is handed the whole weight array and rows `2048·t … 2048·t + 2047` of the features, and writes
  back the same rows of the output. What it writes back at `(p, d)` is the payload of its two input blocks there, which
  is the specification's normalised array `Z` at row `2048·t + p`, lane `d`: the feature block's row `p` is row
  `2048·t + p` of the features and the two loaded weight rows are rows 0 and 1 of the weights. So every point writes
  back ITS BLOCK OF ONE whole-array function, `Z` of the entry contents; the four blocks cover the array (row `r` is in
  the block of point `r / 2048`); hence the array the pipeline leaves is `Z` of the entry contents.
-/
import proofs.«177576_j29703993819980_2_alg».proof.Proof.IdealBody0
import proofs.«177576_j29703993819980_2_alg».proof.Proof.Payload
import proofs.«177576_j29703993819980_2_alg».proof.Proof.Spec
import Idealize.ShloMosaic.Lib.Pipeline.Value
import Idealize.ShloMosaic.Lib.ValueIdx

noncomputable section

namespace Cert.KernelIdeal.Blocks0

open Cert.KernelIdeal Cert.KernelIdeal.Gen Cert.KernelIdeal.Run Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets, however spelt. -/
theorem zeros : (![0, 0] : Fin 2 → Nat) = fun _ => 0 := funext fun a => by fin_cases a <;> rfl

/-- The block indices over the grid: the weights' block is always block (0, 0); the features' and the output's block at
    point `t` is block (t, 0). -/
theorem index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The grid has four points. -/
theorem point_lt (t : Fin cfg0.N) : t.val < 4 := lt_of_lt_of_eq t.isLt N_0

/-! ## The input blocks, read off their arrays -/

/-- The weights' block at any point is the whole weight array. -/
theorem weights_block_apply (c : Dev nD) (t : Fin cfg0.N) (y : S2x512.Idx) :
    (iblk0 V c 0 t : Vec Ideal S2x512 .f32) y = (V c main_arg1 : S2x512.Idx → EReal) y := by
  obtain ⟨e0, e1, -, -, -, -⟩ := index_facts t
  unfold iblk0
  rw [View.read_apply]
  show V c main_arg1 _ = V c main_arg1 _
  congr 1
  funext a; apply Fin.ext
  match a with
  | ⟨0, _⟩ => show win0_0.index t 0 * 2 + 1 * (y 0).val = (y 0).val; rw [e0]; omega
  | ⟨1, _⟩ => show win0_0.index t 1 * 512 + 1 * (y 1).val = (y 1).val; rw [e1]; omega

/-- The features' block at point `t` is rows `2048·t … 2048·t + 2047` of the feature array. -/
theorem features_block_apply (c : Dev nD) (t : Fin cfg0.N) (x : S2048x512.Idx) (k : S8192x512.Idx)
    (hk0 : (k 0).val = t.val * 2048 + (x 0).val) (hk1 : (k 1).val = (x 1).val) :
    (iblk0 V c 1 t : Vec Ideal S2048x512 .f32) x = (V c main_arg0 : S8192x512.Idx → EReal) k := by
  obtain ⟨-, -, e0, e1, -, -⟩ := index_facts t
  unfold iblk0
  rw [View.read_apply]
  show V c main_arg0 _ = V c main_arg0 _
  congr 1
  funext a; apply Fin.ext
  match a with
  | ⟨0, _⟩ => show win0_1.index t 0 * 2048 + 1 * (x 0).val = (k 0).val; rw [e0, hk0]; omega
  | ⟨1, _⟩ => show win0_1.index t 1 * 512 + 1 * (x 1).val = (k 1).val; rw [e1, hk1]; omega

/-! ## One point's payload is its rows of the normalised array -/

/-- Row 0 of the weights, loaded through its one-row rectangle. -/
theorem weights_row0 (x0 : Vec Ideal S2x512 .f32) (d : Fin 512) :
    View.ld x0 r0_w0 (ix2 (0 : Fin 1) d) = x0 (ix2 (0 : Fin 2) d) := by
  show x0 (r0_w0.emb (ix2 (0 : Fin 1) d)) = _
  congr 1
  funext a; apply Fin.ext
  match a with
  | ⟨0, _⟩ => rw [Rect.emb_apply]; show 0 + 1 * 0 = 0; omega
  | ⟨1, _⟩ => rw [Rect.emb_apply]; show 0 + 1 * d.val = d.val; omega

/-- Row 1 of the weights, loaded through its one-row rectangle. -/
theorem weights_row1 (x0 : Vec Ideal S2x512 .f32) (d : Fin 512) :
    View.ld x0 r0_w1 (ix2 (0 : Fin 1) d) = x0 (ix2 (1 : Fin 2) d) := by
  show x0 (r0_w1.emb (ix2 (0 : Fin 1) d)) = _
  congr 1
  funext a; apply Fin.ext
  match a with
  | ⟨0, _⟩ => rw [Rect.emb_apply]; show 1 + 1 * 0 = 1; omega
  | ⟨1, _⟩ => rw [Rect.emb_apply]; show 0 + 1 * d.val = d.val; omega

/-- If a block `x1` is rows `2048·T …` of the features `f` and `x0` is the weight array `w`, the payload at `(p, d)` is
    the normalised array at row `2048·T + p`, lane `d`. -/
theorem payload_is_Z (f : S8192x512.Idx → EReal) (w : S2x512.Idx → EReal)
    (x1 : Vec Ideal S2048x512 .f32) (x0 : Vec Ideal S2x512 .f32) (T : ℕ)
    (hx1 : ∀ (p : Fin 2048) (d : Fin 512) (n : Fin 8192), n.val = T * 2048 + p.val → x1 (ix2 p d) = f (ix2 n d))
    (hx0 : ∀ y : S2x512.Idx, x0 y = w y)
    (p : Fin 2048) (d : Fin 512) (n : Fin 8192) (hn : n.val = T * 2048 + p.val) :
    k0_pay1 (F := Ideal) x1 (View.ld x0 r0_w0) (View.ld x0 r0_w1) (ix2 p d) = Cert.Spec.Z f w (ix2 n d) := by
  rw [Payload.norm_payload, Cert.Spec.Z_apply]
  have e1 : (fun d' => x1 (ix2 p d')) = fun d' => f (ix2 n d') := funext fun d' => hx1 p d' n hn
  have e2 : (fun d' => View.ld x0 r0_w0 (ix2 (0 : Fin 1) d')) = fun d' => w (ix2 (0 : Fin 2) d') :=
    funext fun d' => (weights_row0 x0 d').trans (hx0 _)
  have e3 : (fun d' => View.ld x0 r0_w1 (ix2 (0 : Fin 1) d')) = fun d' => w (ix2 (1 : Fin 2) d') :=
    funext fun d' => (weights_row1 x0 d').trans (hx0 _)
  rw [e1, e2, e3]

/-- What a point writes back of a block's contents `X`, at the block's index `j`, is `X` at `j`'s two coordinates. -/
theorem cut_apply {α : Type} (t : Fin cfg0.N) (X : S2048x512.Idx → α) (j : ((cfg0.win 2).xblock (grid0.coords t)).Idx)
    (h0 : (j 0).val < 2048) (h1 : (j 1).val < 512) :
    (cfg0.win 2).cut (grid0.coords t) X j = X (ix2 ⟨(j 0).val, h0⟩ ⟨(j 1).val, h1⟩) :=
  congrArg X (funext fun a => by match a with | ⟨0, _⟩ => rfl | ⟨1, _⟩ => rfl)

/-! ## The write-backs, and the array they leave -/

/-- WHAT POINT `t` WRITES BACK is block `t` of the normalised array of the entry contents. -/
theorem flushed_eq (c : Dev nD) (t : Fin cfg0.N) :
    (dat0 (F := Ideal) V c).flushed 2 t
      = ((cfg0.win 2).blk t).view.read (Elt Ideal) (Cert.Spec.Z (V c main_arg0) (V c main_arg1)) := by
  show (cfg0.win 2).cut (grid0.coords t) ((dat0 (F := Ideal) V c).after 2 t) = _
  rw [after0_2]
  unfold out0_2
  rw [View.canon_unit_zero zeros]
  simp only [View.ld_unit_zero (S := S2048x512) zeros]
  funext j
  have hj0 : (j 0).val < 2048 := (j 0).isLt
  have hj1 : (j 1).val < 512 := (j 1).isLt
  have ht := point_lt t
  obtain ⟨-, -, -, -, e0, e1⟩ := index_facts t
  rw [View.read_apply]
  refine (cut_apply t _ j hj0 hj1).trans ?_
  refine (payload_is_Z (V c main_arg0) (V c main_arg1) (iblk0 V c 1 t) (iblk0 V c 0 t) t.val
    (fun p d n hn => features_block_apply V c t (ix2 p d) (ix2 n d) hn rfl)
    (fun y => weights_block_apply V c t y)
    ⟨(j 0).val, hj0⟩ ⟨(j 1).val, hj1⟩ ⟨t.val * 2048 + (j 0).val, by omega⟩ rfl).trans ?_
  refine congrArg (Cert.Spec.Z (V c main_arg0) (V c main_arg1)) (funext fun a => Fin.ext ?_)
  match a with
  | ⟨0, _⟩ => show t.val * 2048 + (j 0).val = win0_2.index t 0 * 2048 + 1 * (j 0).val; rw [e0]; omega
  | ⟨1, _⟩ => show (j 1).val = win0_2.index t 1 * 512 + 1 * (j 1).val; rw [e1]; omega

/-- An index of the array is in point `t`'s block iff each coordinate is in the block's range on its axis. -/
theorem mem_blk (t : Fin cfg0.N) (i : S8192x512.Idx) :
    i ∈ ((cfg0.win 2).blk t).view.set
      ↔ ∀ a : Fin 2, win0_2.index t a * S2048x512.size a ≤ (i a).val ∧ (i a).val < win0_2.index t a * S2048x512.size a + S2048x512.size a := by
  show i ∈ ((View.whole main_v0).slice (win0_2.rect t)).set ↔ _
  rw [View.set_slice_whole, Rect.mem_set_unit]
  exact Iff.rfl

/-- Every row of the array is in the block of the point `row / 2048`. -/
theorem cover (i : S8192x512.Idx) : ∃ t : Fin cfg0.N, (cfg0.win 2).flush t = true ∧ i ∈ ((cfg0.win 2).blk t).view.set := by
  have hi0 : (i 0).val < 8192 := (i 0).isLt
  have hi1 : (i 1).val < 512 := (i 1).isLt
  have hq : (i 0).val / 2048 < grid0.N := by rw [N_0]; omega
  refine ⟨⟨(i 0).val / 2048, hq⟩, flush0_2 _, ?_⟩
  obtain ⟨-, -, -, -, e0, e1⟩ := index_facts ⟨(i 0).val / 2048, hq⟩
  rw [mem_blk]
  intro a
  match a with
  | ⟨0, _⟩ =>
    show win0_2.index ⟨(i 0).val / 2048, hq⟩ 0 * 2048 ≤ (i 0).val ∧ (i 0).val < win0_2.index ⟨(i 0).val / 2048, hq⟩ 0 * 2048 + 2048
    rw [e0]; show (i 0).val / 2048 * 2048 ≤ (i 0).val ∧ (i 0).val < (i 0).val / 2048 * 2048 + 2048; omega
  | ⟨1, _⟩ =>
    show win0_2.index ⟨(i 0).val / 2048, hq⟩ 1 * 512 ≤ (i 1).val ∧ (i 1).val < win0_2.index ⟨(i 0).val / 2048, hq⟩ 1 * 512 + 512
    rw [e1]; omega

/-- THE ARRAY the first pipeline leaves is the normalised array of the entry contents: every row of the features
    through `normRow` with the two weight rows. -/
theorem final0 (c : Dev nD) :
    ((Cert.KernelIdeal.Run.dat0 (F := Ideal) V c).arrAt 2 cfg0.N : Cert.Spec.SRows.Idx → EReal)
      = Cert.Spec.Z (V c main_arg0) (V c main_arg1) :=
  (dat0 (F := Ideal) V c).arrAt_eq_of_cover 2 (Cert.Spec.Z (V c main_arg0) (V c main_arg1))
    (fun t _ => flushed_eq V c t) cover

end Cert.KernelIdeal.Blocks0

end
-- ==== Proof.Blocks1.lean ====
/-
  From blocks to the array, for the second kernel (the clamped inner products).

  The grid has 32 points. Point t is handed rows 256·t … 256·t + 255 of the array of normalised rows as its row block,
  the whole of that same array as its second input, and writes back rows 256·t … 256·t + 255 of the 8192 × 8192 result,
  all 8192 columns. So:

  * an element (p, k) of the row block is element (256·t + p, k) of the array, and an element of the second input's block
    is the array's own element (the block index of that window is (0, 0) at every point);
  * the value the point stores at (p, q) is therefore the clamped inner product of row 256·t + p with row q of the
    array, which is the specification's entry (256·t + p, q);
  * element (p, q) of the output's block sits in the result at (256·t + p, q), so what the point writes back is block t
    of the specification's array;
  * the index with row r lies in the block of point r / 256, every point writes its block back, and so the blocks cover
    the result, which ends holding the specification's array.
-/
import proofs.«177576_j29703993819980_2_alg».proof.Proof.IdealBody1
import proofs.«177576_j29703993819980_2_alg».proof.Proof.Payload
import proofs.«177576_j29703993819980_2_alg».proof.Proof.Spec
import Idealize.ShloMosaic.Lib.Pipeline.Value
import Idealize.ShloMosaic.Lib.ValueIdx

noncomputable section

namespace Cert.KernelIdeal.Blocks1

open Cert.KernelIdeal Cert.KernelIdeal.Gen Cert.KernelIdeal.Run Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 32 grid points: the row block and the output block move with the point along the rows, the
    whole array's block never moves. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 32 := lt_of_lt_of_eq t.isLt N_1

/-- The row block at point t is rows 256·t … 256·t + 255 of the array of normalised rows. -/
theorem rowBlock_apply (c : Dev nD) (t : Fin cfg1.N) (x : S256x512.Idx) (j : S8192x512.Idx)
    (h0 : (j 0).val = 256 * t.val + (x 0).val) (h1 : (j 1).val = (x 1).val) :
    (iblk1 V c 0 t : Vec Ideal S256x512 .bf16) x = (V c main_v0 : S8192x512.Idx → Elt Ideal .bf16) j := by
  obtain ⟨e0, e1, -, -, -, -⟩ := index_facts t
  unfold iblk1
  rw [View.read_apply]
  show V c main_v0 _ = V c main_v0 _
  congr 1
  funext a
  apply Fin.ext
  match a with
  | ⟨0, _⟩ => show win1_0.index t (0 : Fin 2) * 256 + 1 * (x 0).val = (j 0).val; rw [e0, h0]; omega
  | ⟨1, _⟩ => show win1_0.index t (1 : Fin 2) * 512 + 1 * (x 1).val = (j 1).val; rw [e1, h1]; omega

/-- The whole array's block at any point is the array. -/
theorem wholeBlock_apply (c : Dev nD) (t : Fin cfg1.N) (x : S8192x512.Idx) :
    (iblk1 V c 1 t : Vec Ideal S8192x512 .bf16) x = (V c main_v0 : S8192x512.Idx → Elt Ideal .bf16) x := by
  obtain ⟨-, -, e2, e3, -, -⟩ := index_facts t
  unfold iblk1
  rw [View.read_apply]
  show V c main_v0 _ = V c main_v0 _
  congr 1
  funext a
  apply Fin.ext
  match a with
  | ⟨0, _⟩ => show win1_1.index t (0 : Fin 2) * 8192 + 1 * (x 0).val = (x 0).val; rw [e2]; omega
  | ⟨1, _⟩ => show win1_1.index t (1 : Fin 2) * 512 + 1 * (x 1).val = (x 1).val; rw [e3]; omega

/-- An entry of what point t stores: at (p, q) of its block, the clamped inner product of row 256·t + p with row q of the
    array of normalised rows. -/
theorem stored_entry (c : Dev nD) (t : Fin cfg1.N) (p : Fin 256) (q : Fin 8192) (n : Fin 8192) (hn : n.val = 256 * t.val + p.val) :
    k1_pay1 (F := Ideal) (iblk1 V c 0 t) (iblk1 V c 1 t) (ix2 p q)
      = Cert.Spec.Sim (V c main_v0) (ix2 n q) := by
  refine (Cert.KernelIdeal.Payload.sim_payload (iblk1 V c 0 t) (iblk1 V c 1 t) p q).trans ?_
  rw [Cert.Spec.Sim_apply]
  exact congrArg₂ Cert.Spec.simEntry
    (funext fun k => rowBlock_apply V c t (ix2 p k) (ix2 n k) hn rfl)
    (funext fun k => wholeBlock_apply V c t (ix2 q k))

/-- What point t writes back is block t of the specification's array. -/
theorem flushed_eq (c : Dev nD) (t : Fin cfg1.N) :
    (dat1 (F := Ideal) V c).flushed 2 t = ((cfg1.win 2).blk t).view.read (Elt Ideal) (Cert.Spec.Sim (V c main_v0)) := by
  show (cfg1.win 2).cut (grid1.coords t) ((dat1 (F := Ideal) V c).after 2 t) = _
  rw [after1_2]
  unfold out1_2
  rw [View.canon_unit_zero zero_offsets]
  simp only [View.ld_unit_zero (S := S256x512) zero_offsets, View.ld_unit_zero (S := S8192x512) zero_offsets]
  obtain ⟨-, -, -, -, e4, e5⟩ := index_facts t
  have ht := point_lt t
  refine funext fun (j : S256x8192.Idx) => ?_
  obtain ⟨p, q, rfl⟩ : ∃ (p : Fin 256) (q : Fin 8192), j = ix2 p q := ⟨j 0, j 1, eq_ix2 j⟩
  show k1_pay1 (F := Ideal) (iblk1 V c 0 t) (iblk1 V c 1 t) (ix2 p q)
      = Cert.Spec.Sim (V c main_v0) (((cfg1.win 2).blk t).view.emb (ix2 p q))
  have hemb : ((cfg1.win 2).blk t).view.emb (ix2 p q) = ix2 (⟨256 * t.val + p.val, by omega⟩ : Fin 8192) q := by
    funext a; apply Fin.ext
    match a with
    | ⟨0, _⟩ => show win1_2.index t (0 : Fin 2) * 256 + 1 * p.val = 256 * t.val + p.val; rw [e4]; omega
    | ⟨1, _⟩ => show win1_2.index t (1 : Fin 2) * 8192 + 1 * q.val = q.val; rw [e5]; omega
  rw [hemb]
  exact stored_entry V c t p q _ rfl

/-- An index of the result is in point t's block iff, on each axis, its coordinate is in the block's range. -/
theorem mem_block (t : Fin cfg1.N) (i : S8192x8192.Idx) :
    i ∈ ((cfg1.win 2).blk t).view.set ↔ ∀ a : Fin 2, win1_2.index t a * S256x8192.size a ≤ (i a).val
      ∧ (i a).val < win1_2.index t a * S256x8192.size a + S256x8192.size a := by
  show i ∈ ((View.whole main_v1).slice (win1_2.rect t)).set ↔ _
  rw [View.set_slice_whole, Rect.mem_set_unit]
  exact Iff.rfl

/-- The blocks tile the result: the index with row r is in the block of point r / 256, and every point writes back. -/
theorem covered (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ : ∃ t : Fin cfg1.N, t.val = (i 0).val / 256 :=
    ⟨⟨(i 0).val / 256, by rw [show cfg1.N = 32 from N_1]; omega⟩, rfl⟩
  obtain ⟨-, -, -, -, e4, e5⟩ := index_facts t
  refine ⟨t, flush1_2 t, ?_⟩
  rw [mem_block]
  intro a
  match a with
  | ⟨0, _⟩ =>
    show win1_2.index t (0 : Fin 2) * 256 ≤ (i 0).val ∧ (i 0).val < win1_2.index t (0 : Fin 2) * 256 + 256
    rw [e4, ht]; omega
  | ⟨1, _⟩ =>
    show win1_2.index t (1 : Fin 2) * 8192 ≤ (i 1).val ∧ (i 1).val < win1_2.index t (1 : Fin 2) * 8192 + 8192
    rw [e5]; omega

/-- The array the second pipeline leaves is the specification's array of clamped inner products of the rows it was
    handed. -/
theorem final1 (c : Dev nD) :
    ((Cert.KernelIdeal.Run.dat1 (F := Ideal) V c).arrAt 2 cfg1.N : Cert.Spec.SSims.Idx → EReal)
      = Cert.Spec.Sim (V c main_v0) :=
  (dat1 (F := Ideal) V c).arrAt_eq_of_cover 2 (Cert.Spec.Sim (V c main_v0)) (fun t _ => flushed_eq V c t) covered

end Cert.KernelIdeal.Blocks1

end
-- ==== Proof.RefValue.lean ====
/-
  The reference's result is the specification.

  Each stage of the reference is read at an index through the generated reading lemmas, from the last stage inwards, and
  identified with the specification's function of the same name:

  * the two weight rows reach lane (n, d) through a slice, a reshape to rank one and two broadcasts; composed, these read
    row 0 (respectively row 1) of the weights at lane d (the reshape's index is d modulo 512, which is d);
  * the product stage at (n, d) is the scaled lane `max (x·w₀) 0 · w₁` of row n;
  * the float sum along the lanes starts from the zero word, which is 0, so it is the plain sum of the squares of the
    scaled lanes of row n;
  * the square root, the clamp below by the fixed positive word and the broadcast back along the lanes give the divisor
    of row n, and the quotient stage at (n, d) is lane d of normalised row n;
  * the contraction at (n, k) is the sum over the lanes of the products of normalised rows n and k, and the last stage
    clamps it below at the zero word.

  The zero word inside `scaled` and in the last clamp is the same word on both sides and is never evaluated; only the
  sum's initial value is.
-/
import proofs.«177576_j29703993819980_2_alg».proof.Proof.Gen.ReferenceIdeal.Read
import proofs.«177576_j29703993819980_2_alg».proof.Proof.Spec
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Idealize.SL.Sem

/-- The first weight row, read through the slice, the reshape and the two broadcasts, is row 0 of the weights. -/
theorem w0_idx (n : Fin 8192) (d : Fin 512) :
    idx_main_v0 (idx_main_v1 (idx_main_v2 (idx_main_v3 (ix2 n d)))) = ix2 (0 : Fin 2) d :=
  funext fun a => Fin.ext (by
    match a with
    | ⟨0, _⟩ => rfl
    | ⟨1, _⟩ => exact Nat.mod_eq_of_lt d.isLt)

/-- The second weight row, likewise, is row 1 of the weights. -/
theorem w1_idx (n : Fin 8192) (d : Fin 512) :
    idx_main_v6 (idx_main_v7 (idx_main_v8 (idx_main_v9 (ix2 n d)))) = ix2 (1 : Fin 2) d :=
  funext fun a => Fin.ext (by
    match a with
    | ⟨0, _⟩ => rfl
    | ⟨1, _⟩ => exact Nat.mod_eq_of_lt d.isLt)

/-- The twice-scaled rows: lane (n, d) of the product stage is the scaled lane of row n. -/
theorem scaled_stage (f : (⟨S8192x512, .f32⟩ : BufTy).Contents (Elt Ideal)) (w : (⟨S2x512, .f32⟩ : BufTy).Contents (Elt Ideal))
    (n : Fin 8192) (d : Fin 512) :
    val_main_v10 (F := Ideal) f w (ix2 n d)
      = Cert.Spec.scaled (fun d => f (ix2 n d)) (fun d => w (ix2 (0 : Fin 2) d)) (fun d => w (ix2 (1 : Fin 2) d)) d := by
  rw [val_main_v10_apply, val_main_v5_apply, val_main_v4_apply, val_main_v3_apply, val_main_v2_apply, val_main_v1_apply,
    val_main_v0_apply, val_main_call0_v0_apply, val_main_call0_cst_apply, val_main_v9_apply, val_main_v8_apply,
    val_main_v7_apply, val_main_v6_apply, w0_idx, w1_idx]
  simp only [Ideal.mulf_def, Ideal.maximumf_def, Ideal.ofBits_def]
  rfl

/-- The sum of squares of row n: the float sum's initial value is the zero word, which is 0, and its operand at (n, k)
    is the square of the scaled lane. -/
theorem sumSq_stage (f : (⟨S8192x512, .f32⟩ : BufTy).Contents (Elt Ideal)) (w : (⟨S2x512, .f32⟩ : BufTy).Contents (Elt Ideal))
    (n : Fin 8192) :
    val_main_v12 (F := Ideal) f w (ix1 n)
      = Cert.Spec.sumSq (fun d => f (ix2 n d)) (fun d => w (ix2 (0 : Fin 2) d)) (fun d => w (ix2 (1 : Fin 2) d)) := by
  have e : ∀ k : Fin 512, idx_main_v12 (ix1 n) k = ix2 n k := fun k =>
    funext fun a => Fin.ext (by match a with | ⟨0, _⟩ => rfl | ⟨1, _⟩ => rfl)
  rw [val_main_v12_apply, val_main_cst_apply]
  simp only [e, val_main_v11_apply, scaled_stage, Ideal.mulf_def, Ideal.ofBits_def, Ideal.ofBits_zero_f32, zero_add]
  rfl

/-- The clamped norm of row n, broadcast along the lanes: the larger of the square root of the sum of squares and the
    fixed positive word. -/
theorem norm_stage (f : (⟨S8192x512, .f32⟩ : BufTy).Contents (Elt Ideal)) (w : (⟨S2x512, .f32⟩ : BufTy).Contents (Elt Ideal))
    (n : Fin 8192) (d : Fin 512) :
    val_main_v17 (F := Ideal) f w (ix2 n d)
      = max (Ideal.sqrt (Cert.Spec.sumSq (fun d => f (ix2 n d)) (fun d => w (ix2 (0 : Fin 2) d)) (fun d => w (ix2 (1 : Fin 2) d))))
          (Ideal.ofBits .f32 0x2B8CBCCC#32) := by
  have e : idx_main_v13 (idx_main_v17 (ix2 n d)) = ix1 n :=
    funext fun a => Fin.ext (by match a with | ⟨0, _⟩ => rfl)
  rw [val_main_v17_apply, val_main_v16_apply, val_main_v14_apply, val_main_v13_apply, val_main_v15_apply,
    val_main_cst_0_apply, e, sumSq_stage]
  simp only [Ideal.maximumf_def, Ideal.hostUnary_sqrt_def, Ideal.ofBits_def]

/-- The normalised rows stage is the specification's array of normalised rows. -/
theorem rows_stage (f : (⟨S8192x512, .f32⟩ : BufTy).Contents (Elt Ideal)) (w : (⟨S2x512, .f32⟩ : BufTy).Contents (Elt Ideal))
    (n : Fin 8192) (d : Fin 512) :
    val_main_v18 (F := Ideal) f w (ix2 n d) = Cert.Spec.Z f w (ix2 n d) := by
  rw [val_main_v18_apply, scaled_stage, norm_stage, Cert.Spec.Z_apply, Ideal.hostDivf_def]
  rfl

/-- The last stage is the specification: entry (n, k) is the inner product of normalised rows n and k, clamped below at
    the zero word. -/
theorem stage_eq (f : (⟨S8192x512, .f32⟩ : BufTy).Contents (Elt Ideal)) (w : (⟨S2x512, .f32⟩ : BufTy).Contents (Elt Ideal)) :
    val_main_v20 (F := Ideal) f w = Cert.Spec.Sim (Cert.Spec.Z f w) := by
  funext i
  obtain ⟨n, k, rfl⟩ : ∃ (n : Fin 8192) (k : Fin 8192), i = ix2 n k := ⟨i 0, i 1, eq_ix2 i⟩
  have el : ∀ q : Fin 512, lidx_main_v19 (ix2 n k) q = ix2 n q := fun q =>
    funext fun a => Fin.ext (by match a with | ⟨0, _⟩ => rfl | ⟨1, _⟩ => rfl)
  have er : ∀ q : Fin 512, ridx_main_v19 (ix2 n k) q = ix2 k q := fun q =>
    funext fun a => Fin.ext (by match a with | ⟨0, _⟩ => rfl | ⟨1, _⟩ => rfl)
  rw [val_main_v20_apply, val_main_v19_apply, val_main_call1_v0_apply, val_main_call1_cst_apply, Cert.Spec.Sim_apply]
  simp only [el, er, rows_stage, Ideal.maximumf_def, Ideal.ofBits_def]
  rfl

/-- The reference's result is the specification of the two argument arrays. -/
theorem ref_eq (m : (ℓ : Loc Cert.ReferenceIdeal.nD Cert.ReferenceIdeal.τ Cert.ReferenceIdeal.sig) → Buf (Elt Ideal) ℓ) (c : Dev Cert.ReferenceIdeal.nD) :
    (Cert.ReferenceIdeal.Value.res_main_v20 (F := Ideal) m c : Cert.ReferenceIdeal.S8192x8192.Idx → EReal)
      = Cert.Spec.Sim (Cert.Spec.Z (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) :=
  (val_main_v20_eq m c).trans (stage_eq _ _)

end Cert.ReferenceIdeal.RefValue

end
-- ==== Proof.lean ====
/-
  Two programs compute the clamped cosine similarities of the rows of a feature matrix.

  Each row of the 8192×512 features is scaled lane by lane by the first weight row, clamped below at zero, scaled by
  the second weight row, and divided by the larger of its Euclidean norm and a fixed positive word; the result at
  (n, m) is the inner product of normalised rows n and m, clamped below at zero (`Cert.Spec.Sim (Cert.Spec.Z f w)`).

  The kernel does this in two grid launches: the first normalises the rows, 2048 at a time, into an intermediate
  array; the second takes 256 normalised rows at a time against the whole intermediate array and writes 256 rows of
  the result. The reference is the same arithmetic as whole-array operations. Over the extended reals every operation
  is exact and a change of float format is the identity, so both programs end with the same array: no algebraic law
  is needed beyond reading each side index by index, and the precondition (finite inputs) is never opened.

  * the frames: each kernel launch runs to the end at every grid point, faulting nowhere, and writes only its own
    output array, so the two arguments end as launched (the same proof at the word-level and at the exact instance);
    the reference is a straight line of host operations;
  * the exact program is the word-level program's text read at the exact instance: nothing to preserve;
  * the values: the first launch leaves `Z f w` in the intermediate array (block t holds rows 2048·t …, each row
    the normalised row), the second leaves `Sim` of the intermediate array (block t holds rows 256·t …), and the
    reference's composed term read at an index is `Sim (Z f w)`.
-/
import proofs.«177576_j29703993819980_2_alg».proof.Defs
import proofs.«177576_j29703993819980_2_alg».proof.Proof.Gen.Kernel
import proofs.«177576_j29703993819980_2_alg».proof.Proof.Gen.KernelIdeal
import proofs.«177576_j29703993819980_2_alg».proof.Proof.Gen.ReferenceIdeal
import proofs.«177576_j29703993819980_2_alg».proof.Proof.Gen.Pre_finite_inputs
import proofs.«177576_j29703993819980_2_alg».proof.Proof.Gen.ReferenceIdeal.Run
import proofs.«177576_j29703993819980_2_alg».proof.Proof.BitsRun
import proofs.«177576_j29703993819980_2_alg».proof.Proof.IdealRun
import proofs.«177576_j29703993819980_2_alg».proof.Proof.Blocks0
import proofs.«177576_j29703993819980_2_alg».proof.Proof.Blocks1
import proofs.«177576_j29703993819980_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Run.frame m ρ
/-- The same of the kernel read at the exact instance. -/
theorem frame_ki : Cert.frame_KernelIdeal := fun m ρ _ => Cert.KernelIdeal.Run.frame m ρ
/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The exact program is the printed program's own text: no rewrite to account for. -/
theorem preserves : Cert.preserves_Kernel_KernelIdeal := trivial

/-- Both programs end with `Sim (Z f w)` of the arguments `f`, `w`: the kernel's second launch leaves `Sim` of the
    intermediate array, which the first launch left at `Z f w`; the reference's term is `Sim (Z f w)` index by index. -/
theorem algebraic : Cert.algebraic_KernelIdeal_ReferenceIdeal := by
  intro m ρ m' ρ' _ hagree
  refine ⟨fun c => Cert.Spec.Sim (Cert.Spec.Z
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.Run.run_main (F := Ideal) m ρ)
    refine (Cert.KernelIdeal.Blocks1.final1 (Cert.KernelIdeal.Run.V2 m ρ) c).trans ?_
    refine congrArg Cert.Spec.Sim ?_
    exact (Cert.KernelIdeal.Run.V2_main_v0 m ρ c).trans (Cert.KernelIdeal.Blocks0.final0 (Cert.KernelIdeal.Run.V0 m ρ) c)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
